-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S20000x32x256 : Shape := ⟨3, ![20000, 32, 256]⟩
abbrev S256x10 : Shape := ⟨2, ![256, 10]⟩
abbrev S10 : Shape := ⟨1, ![10]⟩
abbrev S10x512 : Shape := ⟨2, ![10, 512]⟩
abbrev S512 : Shape := ⟨1, ![512]⟩
abbrev S256x512 : Shape := ⟨2, ![256, 512]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S20000x32x256 : S_.BroadcastsInDim S20000x32x256 (![] : Fin 0 → Fin S20000x32x256.rank)
  reducesTo_S20000x32x256_S_d0_1_2 : S20000x32x256.ReducesTo [0, 1, 2] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S10x512 : S_.BroadcastsInDim S10x512 (![] : Fin 0 → Fin S10x512.rank)
  reducesTo_S10x512_S_d0_1 : S10x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S10x512 .f32) (main_arg5 : FVec F S512 .f32) (main_arg6 : FVec F S256x512 .f32) (main_arg7 : FVec F S512 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x512 .f32 := Host.absf main_arg4
  let main_cst_6 : FVec F S_ .f32 := constant S_ .f32 0x7F800000#32
  let main_v20 : FVec F S10x512 .f32 := broadcastInDim S10x512 ![] bcast_S_S10x512 main_cst_6
  let main_v21 : IVec S10x512 1 := cmpf .olt main_v19 main_v20
  let main_c_7 : IVec S_ 1 := constantI S_ 1 1#1
  let main_v22 : IVec S_ 1 := (fun x v => Host.reduce IntOp.andi x v reducesTo_S10x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_v33

def fn {F : FTy → Type} [FloatOps F] (main_arg0 : FVec F S20000x256 .f32) (main_arg1 : FVec F S20000x32x256 .f32) (main_arg2 : FVec F S256x10 .f32) (main_arg3 : FVec F S10 .f32) (main_arg4 : FVec F S10x512 .f32) (main_arg5 : FVec F S512 .f32) (main_arg6 : FVec F S256x512 .f32) (main_arg7 : FVec F S512 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x32x256 .f32 := Host.absf main_arg1
  let main_cst_0 : FVec F S_ .f32 := constant S_ .f32 0x7F800000#32
  let main_v5 : FVec F S20000x32x256 .f32 := broadcastInDim S20000x32x256 ![] bcast_S_S20000x32x256 main_cst_0
  let main_v6 : IVec S20000x32x256 1 := cmpf .olt main_v4 main_v5
  let main_c_1 : IVec S_ 1 := constantI S_ 1 1#1
  let main_v7 : IVec S_ 1 := (fun x v => Host.reduce IntOp.andi x v reducesTo_S20000x32x256_S_d0_1_2 h_S_) main_v6 main_c_1
  let main_v8 : IVec S_ 1 := andi main_v3 main_v7
  let main_v9 : FVec F S256x10 .f32 := Host.absf main_arg2
  let main_cst_2 : FVec F S_ .f32 := constant S_ .f32 0x7F800000#32
  let main_v10 : FVec F S256x10 .f32 := broadcastInDim S256x10 ![] bcast_S_S256x10 main_cst_2
  let main_v11 : IVec S256x10 1 := cmpf .olt main_v9 main_v10
  let main_c_3 : IVec S_ 1 := constantI S_ 1 1#1
  let main_v12 : IVec S_ 1 := (fun x v => Host.reduce IntOp.andi x v reducesTo_S256x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S20000x256 : Shape := ⟨2, ![20000, 256]⟩
abbrev S20000x32x256 : Shape := ⟨3, ![20000, 32, 256]⟩
abbrev S256x10 : Shape := ⟨2, ![256, 10]⟩
abbrev S10 : Shape := ⟨1, ![10]⟩
abbrev S10x512 : Shape := ⟨2, ![10, 512]⟩
abbrev S512 : Shape := ⟨1, ![512]⟩
abbrev S256x512 : Shape := ⟨2, ![256, 512]⟩
abbrev S20000x1024 : Shape := ⟨2, ![20000, 1024]⟩
abbrev S400x256 : Shape := ⟨2, ![400, 256]⟩
abbrev S400x32x256 : Shape := ⟨3, ![400, 32, 256]⟩
abbrev S400x1024 : Shape := ⟨2, ![400, 1024]⟩
abbrev S400x10 : Shape := ⟨2, ![400, 10]⟩
abbrev S400x1x256 : Shape := ⟨3, ![400, 1, 256]⟩
abbrev S1x10 : Shape := ⟨2, ![1, 10]⟩
abbrev S400x512 : Shape := ⟨2, ![400, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S20000x256, .f32⟩
  | .hbm, ⟨1, _⟩ => ⟨S20000x32x256, .f32⟩
  | .hbm, ⟨2, _⟩ => ⟨S256x10, .f32⟩
  | .hbm, ⟨3, _⟩ => ⟨S10, .f32⟩
  | .hbm, ⟨4, _⟩ => ⟨S10x512, .f32⟩
  | .hbm, ⟨5, _⟩ => ⟨S512, .f32⟩
  | .hbm, ⟨6, _⟩ => ⟨S256x512, .f32⟩
  | .hbm, ⟨7, _⟩ => ⟨S512, .f32⟩
  | .hbm, ⟨8, _⟩ => ⟨S20000x1024, .f32⟩
  | .local _ .vmem, ⟨0, _⟩ => ⟨S400x256, .f32⟩
  | .local _ .vmem, ⟨1, _⟩ => ⟨S400x256, .f32⟩
  | .local _ .vmem, ⟨2, _⟩ => ⟨S400x32x256, .f32⟩
  | .local _ .vmem, ⟨3, _⟩ => ⟨S400x32x256, .f32⟩
  | .local _ .vmem, ⟨4, _⟩ => ⟨S256x10, .f32⟩
  | .local _ .vmem, ⟨5, _⟩ => ⟨S10, .f32⟩
  | .local _ .vmem, ⟨6, _⟩ => ⟨S10x512, .f32⟩
  | .local _ .vmem, ⟨7, _⟩ => ⟨S512, .f32⟩
  | .local _ .vmem, ⟨8, _⟩ => ⟨S256x512, .f32⟩
  | .local _ .vmem, ⟨9, _⟩ => ⟨S512, .f32⟩
  | .local _ .vmem, ⟨10, _⟩ => ⟨S400x1024, .f32⟩
  | .local _ .vmem, ⟨11, _⟩ => ⟨S400x1024, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S256x10_S256x10_0_0 : ∀ a, (![0, 0] : Fin 2 → Nat) a + S256x10.size a ≤ S256x10.size a
  h_S256x10 : 0 < S256x10.numel
  bitsLt_bf16_f32 : FTy.bits .bf16 < FTy.bits .f32
  inb_S10_S10_0 : ∀ a, (![0] : Fin 1 → Nat) a + S10.size a ≤ S10.size a
  h_S10 : 0 < S10.numel
  inb_S400x32x256_S400x1x256_0_0_0 : ∀ a, (![0, 0, 0] : Fin 3 → Nat) a + S400x1x256.size a ≤ S400x32x256.size a
  h_S400x1x256 : 0 < S400x1x256.numel
  shapeCasts_S400x1x256_S400x256 : S400x1x256.ShapeCasts S400x256
  shapeCasts_S10_S1x10 : S10.ShapeCasts S1x10
  broadcasts_S1x10_S400x10 : S1x10.Broadcasts S400x10
  inb_S400x32x256_S400x1x256_0_1_0 : ∀ a, (![0, 1, 0] : Fin 3 → Nat) a + S400x1x256.size a ≤ S400x32x256.size a
  inb_S400x32x256_S400x1x256_0_2_0 : ∀ a, (![0, 2, 0] : Fin 3 → Nat) a + S400x1x256.size a ≤ S400x32x256.size a
  inb_S400x32x256_S400x1x256_0_3_0 : ∀ a, (![0, 3, 0] : Fin 3 → Nat) a + S400x1x256.size a ≤ S400x32x256.size a
  inb_S400x32x256_S400x1x256_0_4_0 : ∀ a, (![0, 4, 0] : Fin 3 → Nat) a + S400x1x256.size a ≤ S400x32x256.size a
  inb_S400x32x256_S400x1x256_0_5_0 : ∀ a, (![0, 5, 0] : Fin 3 → Nat) a + S400x1x256.size a ≤ S400x32x256.size a
  inb_S400x32x256_S400x1x256_0_6_0 : ∀ a, (![0, 6, 0] : Fin 3 → Nat) a + S400x1x256.size a ≤ S400x32x256.size a
  inb_S400x32x256_S400x1x256_0_7_0 : ∀ a, (![0, 7, 0] : Fin 3 → Nat) a + S400x1x256.size a ≤ S400x32x256.size a
  inb_S400x32x256_S400x1x256_0_8_0 : ∀ a, (![0, 8, 0] : Fin 3 → Nat) a + S400x1x256.size a ≤ S400x32x256.size a
  inb_S400x32x256_S400x1x256_0_9_0 : ∀ a, (![0, 9, 0] : Fin 3 → Nat) a + S400x1x256.size a ≤ S400x32x256.size a
  inb_S400x32x256_S400x1x256_0_10_0 : ∀ a, (![0, 10, 0] : Fin 3 → Nat) a + S400x1x256.size a ≤ S400x32x256.size a
  inb_S400x32x256_S400x1x256_0_11_0 : ∀ a, (![0, 11, 0] : Fin 3 → Nat) a + S400x1x256.size a ≤ S400x32x256.size a
  inb_S400x32x256_S400x1x256_0_12_0 : ∀ a, (![0, 12, 0] : Fin 3 → Nat) a + S400x1x256.size a ≤ S400x32x256.size a
  inb_S400x32x256_S400x1x256_0_13_0 : ∀ a, (![0, 13, 0] : Fin 3 → Nat) a + S400x1x256.size a ≤ S400x32x256.size a
  inb_S400x32x256_S400x1x256_0_14_0 : ∀ a, (![0, 14, 0] : Fin 3 → Nat) a + S400x1x256.size a ≤ S400x32x256.size a
  inb_S400x32x256_S400x1x256_0_15_0 : ∀ a, (![0, 15, 0] : Fin 3 → Nat) a + S400x1x256.size a ≤ S400x32x256.size a
  inb_S400x32x256_S400x1x256_0_16_0 : ∀ a, (![0, 16, 0] : Fin 3 → Nat) a + S400x1x256.size a ≤ S400x32x256.size a
  inb_S400x32x256_S400x1x256_0_17_0 : ∀ a, (![0, 17, 0] : Fin 3 → Nat) a + S400x1x256.size a ≤ S400x32x256.size a
  inb_S400x32x256_S400x1x256_0_18_0 : ∀ a, (![0, 18, 0] : Fin 3 → Nat) a + S400x1x256.size a ≤ S400x32x256.size a
  inb_S400x32x256_S400x1x256_0_19_0 : ∀ a, (![0, 19, 0] : Fin 3 → Nat) a + S400x1x256.size a ≤ S400x32x256.size a
  inb_S400x32x256_S400x1x256_0_20_0 : ∀ a, (![0, 20, 0] : Fin 3 → Nat) a + S400x1x256.size a ≤ S400x32x256.size a
  inb_S400x32x256_S400x1x256_0_21_0 : ∀ a, (![0, 21, 0] : Fin 3 → Nat) a + S400x1x256.size a ≤ S400x32x256.size a
  inb_S400x32x256_S400x1x256_0_22_0 : ∀ a, (![0, 22, 0] : Fin 3 → Nat) a + S400x1x256.size a ≤ S400x32x256.size a
  inb_S400x32x256_S400x1x256_0_23_0 : ∀ a, (![0, 23, 0] : Fin 3 → Nat) a + S400x1x256.size a ≤ S400x32x256.size a
  inb_S400x32x256_S400x1x256_0_24_0 : ∀ a, (![0, 24, 0] : Fin 3 → Nat) a + S400x1x256.size a ≤ S400x32x256.size a
  inb_S400x32x256_S400x1x256_0_25_0 : ∀ a, (![0, 25, 0] : Fin 3 → Nat) a + S400x1x256.size a ≤ S400x32x256.size a
  inb_S400x32x256_S400x1x256_0_26_0 : ∀ a, (![0, 26, 0] : Fin 3 → Nat) a + S400x1x256.size a ≤ S400x32x256.size a
  inb_S400x32x256_S400x1x256_0_27_0 : ∀ a, (![0, 27, 0] : Fin 3 → Nat) a + S400x1x256.size a ≤ S400x32x256.size a
  inb_S400x32x256_S400x1x256_0_28_0 : ∀ a, (![0, 28, 0] : Fin 3 → Nat) a + S400x1x256.size a ≤ S400x32x256.size a
  inb_S400x32x256_S400x1x256_0_29_0 : ∀ a, (![0, 29, 0] : Fin 3 → Nat) a + S400x1x256.size a ≤ S400x32x256.size a
  inb_S400x32x256_S400x1x256_0_30_0 : ∀ a, (![0, 30, 0] : Fin 3 → Nat) a + S400x1x256.size a ≤ S400x32x256.size a
  inb_S400x32x256_S400x1x256_0_31_0 : ∀ a, (![0, 31, 0] : Fin 3 → Nat) a + S400x1x256.size a ≤ S400x32x256.size a
  inb_S10x512_S10x512_0_0 : ∀ a, (![0, 0] : Fin 2 → Nat) a + S10x512.size a ≤ S10x512.size a
  h_S10x512 : 0 < S10x512.numel
  inb_S512_S512_0 : ∀ a, (![0] : Fin 1 → Nat) a + S512.size a ≤ S512.size a
  h_S512 : 0 < S512.numel
  shapeCasts_S512_S1x512 : S512.ShapeCasts S1x512
  broadcasts_S1x512_S400x512 : S1x512.Broadcasts S400x512
  inb_S400x256_S400x256_0_0 : ∀ a, (![0, 0] : Fin 2 → Nat) a + S400x256.size a ≤ S400x256.size a
  h_S400x256 : 0 < S400x256.numel
  inb_S256x512_S256x512_0_0 : ∀ a, (![0, 0] : Fin 2 → Nat) a + S256x512.size a ≤ S256x512.size a
  h_S256x512 : 0 < S256x512.numel
  inb_S400x1024_S400x512_0_0 : ∀ a, (![0, 0] : Fin 2 → Nat) a + S400x512.size a ≤ S400x1024.size a
  h_S400x512 : 0 < S400x512.numel
  inb_S400x1024_S400x512_0_512 : ∀ a, (![0, 512] : Fin 2 → Nat) a + S400x512.size a ≤ S400x1024.size a
  dot_S400x256_S256x10_S400x10_1_0_0_1_n_n_wf : DotDims.WF S400x256 S256x10 S400x10 [1] [0] [0] [1] [] []
  dot_S400x10_S10x512_S400x512_1_0_0_1_n_n_wf : DotDims.WF S400x10 S10x512 S400x512 [1] [0] [0] [1] [] []
  dot_S400x256_S256x512_S400x512_1_0_0_1_n_n_wf : DotDims.WF S400x256 S256x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S20000x256.size a
  hwx0_0 : ∀ i : grid0.Coords, EltTy.bits .f32 = 32 ∨ (Rect.block (s := S20000x256) S400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x256.size a ≤ S20000x32x256.size a
  hwx0_1 : ∀ i : grid0.Coords, EltTy.bits .f32 = 32 ∨ (Rect.block (s := S20000x32x256) S400x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x10.size a ≤ S256x10.size a
  hwx0_2 : ∀ i : grid0.Coords, EltTy.bits .f32 = 32 ∨ (Rect.block (s := S256x10) S256x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x512.size a ≤ S10x512.size a
  hwx0_4 : ∀ i : grid0.Coords, EltTy.bits .f32 = 32 ∨ (Rect.block (s := S10x512) S10x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x1024.size a ≤ S20000x1024.size a
  hwx0_8 : ∀ i : grid0.Coords, EltTy.bits .f32 = 32 ∨ (Rect.block (s := S20000x1024) S400x1024.size (cc0_transform_8 i) (hinb0_8 i)).WholeWords (EltTy.packing .f32)

variable [Facts₀]

def dot_S400x256_S256x10_S400x10_1_0_0_1_n_n : DotDims S400x256 S256x10 S400x10 where
  lhsContracting := [1]
  rhsContracting := [0]
  lhsNonContracting := [0]
  rhsNonContracting := [1]
  lhsBatch := []
  rhsBatch := []
  wf := dot_S400x256_S256x10_S400x10_1_0_0_1_n_n_wf
def dot_S400x10_S10x512_S400x512_1_0_0_1_n_n : DotDims S400x10 S10x512 S400x512 where
  lhsContracting := [1]
  rhsContracting := [0]
  lhsNonContracting := [0]
  rhsNonContracting := [1]
  lhsBatch := []
  rhsBatch := []
  wf := dot_S400x10_S10x512_S400x512_1_0_0_1_n_n_wf
def dot_S400x256_S256x512_S400x512_1_0_0_1_n_n : DotDims S400x256 S256x512 S400x512 where
  lhsContracting := [1]
  rhsContracting := [0]
  lhsNonContracting := [0]
  rhsNonContracting := [1]
  lhsBatch := []
  rhsBatch := []
  wf := dot_S400x256_S256x512_S400x512_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S400x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S20000x256 : Shape := ⟨2, ![20000, 256]⟩
abbrev S20000x32x256 : Shape := ⟨3, ![20000, 32, 256]⟩
abbrev S256x10 : Shape := ⟨2, ![256, 10]⟩
abbrev S10 : Shape := ⟨1, ![10]⟩
abbrev S10x512 : Shape := ⟨2, ![10, 512]⟩
abbrev S512 : Shape := ⟨1, ![512]⟩
abbrev S256x512 : Shape := ⟨2, ![256, 512]⟩
abbrev S20000x32x10 : Shape := ⟨3, ![20000, 32, 10]⟩
abbrev S1x1x10 : Shape := ⟨3, ![1, 1, 10]⟩
abbrev S_ : Shape := ⟨0, ![]⟩
abbrev S20000x10 : Shape := ⟨2, ![20000, 10]⟩
abbrev S20000x512 : Shape := ⟨2, ![20000, 512]⟩
abbrev S1x512 : Shape := ⟨2, ![1, 512]⟩
abbrev S20000x1024 : Shape := ⟨2, ![20000, 1024]⟩

abbrev nBuf : Space → Nat
  | .hbm => 26
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S20000x32x256, .f32⟩
  | .hbm, ⟨2, _⟩ => ⟨S256x10, .f32⟩
  | .hbm, ⟨3, _⟩ => ⟨S10, .f32⟩
  | .hbm, ⟨4, _⟩ => ⟨S10x512, .f32⟩
  | .hbm, ⟨5, _⟩ => ⟨S512, .f32⟩
  | .hbm, ⟨6, _⟩ => ⟨S256x512, .f32⟩
  | .hbm, ⟨7, _⟩ => ⟨S512, .f32⟩
  | .hbm, ⟨8, _⟩ => ⟨S20000x32x10, .f32⟩
  | .hbm, ⟨9, _⟩ => ⟨S1x1x10, .f32⟩
  | .hbm, ⟨10, _⟩ => ⟨S20000x32x10, .f32⟩
  | .hbm, ⟨11, _⟩ => ⟨S20000x32x10, .f32⟩
  | .hbm, ⟨12, _⟩ => ⟨S_, .f32⟩
  | .hbm, ⟨13, _⟩ => ⟨S20000x32x10, .f32⟩
  | .hbm, ⟨14, _⟩ => ⟨S20000x32x10, .f32⟩
  | .hbm, ⟨15, _⟩ => ⟨S_, .f32⟩
  | .hbm, ⟨16, _⟩ => ⟨S20000x10, .f32⟩
  | .hbm, ⟨17, _⟩ => ⟨S20000x512, .f32⟩
  | .hbm, ⟨18, _⟩ => ⟨S1x512, .f32⟩
  | .hbm, ⟨19, _⟩ => ⟨S20000x512, .f32⟩
  | .hbm, ⟨20, _⟩ => ⟨S20000x512, .f32⟩
  | .hbm, ⟨21, _⟩ => ⟨S20000x512, .f32⟩
  | .hbm, ⟨22, _⟩ => ⟨S1x512, .f32⟩
  | .hbm, ⟨23, _⟩ => ⟨S20000x512, .f32⟩
  | .hbm, ⟨24, _⟩ => ⟨S20000x512, .f32⟩
  | .hbm, ⟨25, _⟩ => ⟨S20000x1024, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S10_S1x1x10_2 : S10.BroadcastsInDim S1x1x10 (![2] : Fin 1 → Fin S1x1x10.rank)
  bcast_S1x1x10_S20000x32x10_0_1_2 : S1x1x10.BroadcastsInDim S20000x32x10 (![0, 1, 2] : Fin 3 → Fin S20000x32x10.rank)
  bcast_S_S20000x32x10 : S_.BroadcastsInDim S20000x32x10 (![] : Fin 0 → Fin S20000x32x10.rank)
  reducesTo_S20000x32x10_S20000x10_d1 : S20000x32x10.ReducesTo [1] S20000x10
  h_S_ : 0 < S_.numel
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  concatenates_S20000x512_S20000x512_S20000x1024_d1 : Shape.Concatenates [S20000x512, S20000x512] S20000x1024 1
  dot_S20000x32x256_S256x10_S20000x32x10_2_0_01_1_n_n_wf : DotDims.WF S20000x32x256 S256x10 S20000x32x10 [2] [0] [0, 1] [1] [] []
  dot_S20000x10_S10x512_S20000x512_1_0_0_1_n_n_wf : DotDims.WF S20000x10 S10x512 S20000x512 [1] [0] [0] [1] [] []
  dot_S20000x256_S256x512_S20000x512_1_0_0_1_n_n_wf : DotDims.WF S20000x256 S256x512 S20000x512 [1] [0] [0] [1] [] []

variable [Facts₀]

def dot_S20000x32x256_S256x10_S20000x32x10_2_0_01_1_n_n : DotDims S20000x32x256 S256x10 S20000x32x10 where
  lhsContracting := [2]
  rhsContracting := [0]
  lhsNonContracting := [0, 1]
  rhsNonContracting := [1]
  lhsBatch := []
  rhsBatch := []
  wf := dot_S20000x32x256_S256x10_S20000x32x10_2_0_01_1_n_n_wf
def dot_S20000x10_S10x512_S20000x512_1_0_0_1_n_n : DotDims S20000x10 S10x512 S20000x512 where
  lhsContracting := [1]
  rhsContracting := [0]
  lhsNonContracting := [0]
  rhsNonContracting := [1]
  lhsBatch := []
  rhsBatch := []
  wf := dot_S20000x10_S10x512_S20000x512_1_0_0_1_n_n_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf

class Facts : Prop extends Facts₀ where

variable [Facts]
-- ==== Proof.Spec.lean ====
/-
  The function both programs compute, one output row at a time.

  For one node the inputs are its own feature row `sv` (256 numbers) and the feature rows `nb n` of its 32 neighbours.
  Each neighbour row is sent through a small dense layer (256 → 10) with a bias and clipped below at zero; the ten
  hidden units are pooled by taking the maximum over the 32 neighbours, starting from −∞. The output row has 1024
  entries: the first 512 are the node's own row times a 256×512 matrix plus a bias, the last 512 the pooled hidden
  row times a 10×512 matrix plus a bias. Everything is read on the extended reals, where sums and products are exact,
  so a row of the result depends on the arguments only through these formulas, whatever the order of summation.

  The two literals (zero and −∞) are kept as their bit patterns: both programs spell them by the same words.
-/
import Idealize.ShloMosaic.Lib.ValueIdx
import Idealize.ShloMosaic.PureOps.Ideal.Laws

noncomputable section

namespace Cert.Spec

open Idealize.ShloMosaic Idealize.ShloMosaic.ValueIdx

/-- Hidden unit `h` of one neighbour row `x`: `max (x · W1[:, h] + b1[h]) 0`. -/
def hidden (W1 : (⟨2, ![256, 10]⟩ : Shape).Idx → EReal) (b1 : (⟨1, ![10]⟩ : Shape).Idx → EReal)
    (x : Fin 256 → EReal) (h : Fin 10) : EReal :=
  max ((∑ d : Fin 256, x d * W1 (ix2 d h)) + b1 (ix1 h)) (Ideal.ofBits .f32 0x00000000#32)

/-- Pooled hidden unit `h`: the maximum over the 32 neighbours of their hidden unit `h`, from −∞. -/
def pooled (W1 : (⟨2, ![256, 10]⟩ : Shape).Idx → EReal) (b1 : (⟨1, ![10]⟩ : Shape).Idx → EReal)
    (nb : Fin 32 → Fin 256 → EReal) (h : Fin 10) : EReal :=
  (Finset.univ : Finset (Fin 32)).fold max (Ideal.ofBits .f32 0xFF800000#32) (fun n => hidden W1 b1 (nb n) h)

/-- Entry `q` of the node's own projection: `sv · Wt2[:, q] + bt2[q]`. -/
def selfPart (Wt2 : (⟨2, ![256, 512]⟩ : Shape).Idx → EReal) (bt2 : (⟨1, ![512]⟩ : Shape).Idx → EReal)
    (sv : Fin 256 → EReal) (q : Fin 512) : EReal :=
  (∑ d : Fin 256, sv d * Wt2 (ix2 d q)) + bt2 (ix1 q)

/-- Entry `q` of the neighbours' projection: `pooled · Wt1[:, q] + bt1[q]`. -/
def neighPart (W1 : (⟨2, ![256, 10]⟩ : Shape).Idx → EReal) (b1 : (⟨1, ![10]⟩ : Shape).Idx → EReal)
    (Wt1 : (⟨2, ![10, 512]⟩ : Shape).Idx → EReal) (bt1 : (⟨1, ![512]⟩ : Shape).Idx → EReal)
    (nb : Fin 32 → Fin 256 → EReal) (q : Fin 512) : EReal :=
  (∑ h : Fin 10, pooled W1 b1 nb h * Wt1 (ix2 h q)) + bt1 (ix1 q)

/-- Entry `c` of one output row: the own projection in columns 0–511, the neighbours' in columns 512–1023. -/
def rowOut (W1 : (⟨2, ![256, 10]⟩ : Shape).Idx → EReal) (b1 : (⟨1, ![10]⟩ : Shape).Idx → EReal)
    (Wt1 : (⟨2, ![10, 512]⟩ : Shape).Idx → EReal) (bt1 : (⟨1, ![512]⟩ : Shape).Idx → EReal)
    (Wt2 : (⟨2, ![256, 512]⟩ : Shape).Idx → EReal) (bt2 : (⟨1, ![512]⟩ : Shape).Idx → EReal)
    (sv : Fin 256 → EReal) (nb : Fin 32 → Fin 256 → EReal) (c : Nat) (hc : c < 1024) : EReal :=
  if h : c < 512 then selfPart Wt2 bt2 sv ⟨c, h⟩
  else neighPart W1 b1 Wt1 bt1 nb ⟨c - 512, by omega⟩

/-- In the first 512 columns a row's entry is the own projection. -/
theorem rowOut_left (W1 : (⟨2, ![256, 10]⟩ : Shape).Idx → EReal) (b1 : (⟨1, ![10]⟩ : Shape).Idx → EReal)
    (Wt1 : (⟨2, ![10, 512]⟩ : Shape).Idx → EReal) (bt1 : (⟨1, ![512]⟩ : Shape).Idx → EReal)
    (Wt2 : (⟨2, ![256, 512]⟩ : Shape).Idx → EReal) (bt2 : (⟨1, ![512]⟩ : Shape).Idx → EReal)
    (sv : Fin 256 → EReal) (nb : Fin 32 → Fin 256 → EReal) (q : Fin 512) (hc : q.val < 1024) :
    rowOut W1 b1 Wt1 bt1 Wt2 bt2 sv nb q.val hc = selfPart Wt2 bt2 sv q := by
  unfold rowOut
  rw [dif_pos q.isLt]

/-- In the last 512 columns it is the neighbours' projection, 512 columns to the left. -/
theorem rowOut_right (W1 : (⟨2, ![256, 10]⟩ : Shape).Idx → EReal) (b1 : (⟨1, ![10]⟩ : Shape).Idx → EReal)
    (Wt1 : (⟨2, ![10, 512]⟩ : Shape).Idx → EReal) (bt1 : (⟨1, ![512]⟩ : Shape).Idx → EReal)
    (Wt2 : (⟨2, ![256, 512]⟩ : Shape).Idx → EReal) (bt2 : (⟨1, ![512]⟩ : Shape).Idx → EReal)
    (sv : Fin 256 → EReal) (nb : Fin 32 → Fin 256 → EReal) (q : Fin 512) (hc : q.val + 512 < 1024) :
    rowOut W1 b1 Wt1 bt1 Wt2 bt2 sv nb (q.val + 512) hc = neighPart W1 b1 Wt1 bt1 nb q := by
  unfold rowOut
  rw [dif_neg (by omega)]
  exact congrArg (neighPart W1 b1 Wt1 bt1 nb) (Fin.ext (Nat.add_sub_cancel q.val 512))

/-- A row's entry depends only on the values of its arguments. -/
theorem rowOut_congr {W1 W1' : (⟨2, ![256, 10]⟩ : Shape).Idx → EReal} {b1 b1' : (⟨1, ![10]⟩ : Shape).Idx → EReal}
    {Wt1 Wt1' : (⟨2, ![10, 512]⟩ : Shape).Idx → EReal} {bt1 bt1' : (⟨1, ![512]⟩ : Shape).Idx → EReal}
    {Wt2 Wt2' : (⟨2, ![256, 512]⟩ : Shape).Idx → EReal} {bt2 bt2' : (⟨1, ![512]⟩ : Shape).Idx → EReal}
    {sv sv' : Fin 256 → EReal} {nb nb' : Fin 32 → Fin 256 → EReal} {c c' : Nat}
    (h1 : W1 = W1') (h2 : b1 = b1') (h3 : Wt1 = Wt1') (h4 : bt1 = bt1') (h5 : Wt2 = Wt2') (h6 : bt2 = bt2')
    (hsv : sv = sv') (hnb : nb = nb') (hc : c = c') (h : c < 1024) (h' : c' < 1024) :
    rowOut W1 b1 Wt1 bt1 Wt2 bt2 sv nb c h = rowOut W1' b1' Wt1' bt1' Wt2' bt2' sv' nb' c' h' := by
  subst h1 h2 h3 h4 h5 h6 hsv hnb hc
  rfl

/-- The whole result over all 20000 nodes. -/
def result (A0 : (⟨2, ![20000, 256]⟩ : Shape).Idx → EReal) (A1 : (⟨3, ![20000, 32, 256]⟩ : Shape).Idx → EReal)
    (W1 : (⟨2, ![256, 10]⟩ : Shape).Idx → EReal) (b1 : (⟨1, ![10]⟩ : Shape).Idx → EReal)
    (Wt1 : (⟨2, ![10, 512]⟩ : Shape).Idx → EReal) (bt1 : (⟨1, ![512]⟩ : Shape).Idx → EReal)
    (Wt2 : (⟨2, ![256, 512]⟩ : Shape).Idx → EReal) (bt2 : (⟨1, ![512]⟩ : Shape).Idx → EReal) :
    (⟨2, ![20000, 1024]⟩ : Shape).Idx → EReal := fun j =>
  rowOut W1 b1 Wt1 bt1 Wt2 bt2 (fun d => A0 (ix2 (⟨(j 0).val, (j 0).isLt⟩ : Fin 20000) d))
    (fun n d => A1 (ix3 (⟨(j 0).val, (j 0).isLt⟩ : Fin 20000) n d)) (j 1).val (j 1).isLt

/-- The same over a block of 400 nodes: what one grid point of the kernel produces from its blocks. -/
def blockResult (x0 : (⟨2, ![400, 256]⟩ : Shape).Idx → EReal) (x1 : (⟨3, ![400, 32, 256]⟩ : Shape).Idx → EReal)
    (W1 : (⟨2, ![256, 10]⟩ : Shape).Idx → EReal) (b1 : (⟨1, ![10]⟩ : Shape).Idx → EReal)
    (Wt1 : (⟨2, ![10, 512]⟩ : Shape).Idx → EReal) (bt1 : (⟨1, ![512]⟩ : Shape).Idx → EReal)
    (Wt2 : (⟨2, ![256, 512]⟩ : Shape).Idx → EReal) (bt2 : (⟨1, ![512]⟩ : Shape).Idx → EReal) :
    (⟨2, ![400, 1024]⟩ : Shape).Idx → EReal := fun j =>
  rowOut W1 b1 Wt1 bt1 Wt2 bt2 (fun d => x0 (ix2 (⟨(j 0).val, (j 0).isLt⟩ : Fin 400) d))
    (fun n d => x1 (ix3 (⟨(j 0).val, (j 0).isLt⟩ : Fin 400) n d)) (j 1).val (j 1).isLt

/-- A maximum folded over the 32 neighbours from a start value is the 32-fold nested maximum, taken in order. -/
theorem fold_max_fin32 (b : EReal) (f : Fin 32 → EReal) :
    (Finset.univ : Finset (Fin 32)).fold max b f
      = max (max (max (max (max (max (max (max (max (max (max (max (max (max (max (max (max (max (max (max (max (max (max
          (max (max (max (max (max (max (max (max (max b (f ⟨0, by decide⟩)) (f ⟨1, by decide⟩)) (f ⟨2, by decide⟩)) (f ⟨3, by decide⟩)) (f ⟨4, by decide⟩)) (f ⟨5, by decide⟩)) (f ⟨6, by decide⟩)) (f ⟨7, by decide⟩)) (f ⟨8, by decide⟩)) (f ⟨9, by decide⟩))
          (f ⟨10, by decide⟩)) (f ⟨11, by decide⟩)) (f ⟨12, by decide⟩)) (f ⟨13, by decide⟩)) (f ⟨14, by decide⟩)) (f ⟨15, by decide⟩)) (f ⟨16, by decide⟩)) (f ⟨17, by decide⟩)) (f ⟨18, by decide⟩)) (f ⟨19, by decide⟩)) (f ⟨20, by decide⟩)) (f ⟨21, by decide⟩)) (f ⟨22, by decide⟩)) (f ⟨23, by decide⟩))
          (f ⟨24, by decide⟩)) (f ⟨25, by decide⟩)) (f ⟨26, by decide⟩)) (f ⟨27, by decide⟩)) (f ⟨28, by decide⟩)) (f ⟨29, by decide⟩)) (f ⟨30, by decide⟩)) (f ⟨31, by decide⟩) := by
  unfold Finset.fold
  rw [Fin.univ_val_map, Multiset.coe_fold_l]
  rfl

end Cert.Spec

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.Body.lean ====
/-
  What one grid point of the kernel leaves in its output block.

  The body reads a block of 400 nodes: their own feature rows `x0`, their 32 neighbour rows each `x1`, and the whole
  weight and bias arrays. For each of the 32 neighbours it takes the neighbour's 400×256 slab, multiplies it by the
  256×10 weight matrix, adds the bias row, clips below at zero, and takes the running maximum with what the earlier
  neighbours gave, starting from −∞: a 32-fold nested maximum, which is the maximum folded over the neighbours in
  order (`Spec.fold_max_fin32`). The pooled 400×10 array times the 10×512 matrix plus a bias row goes to columns
  512–1023 of the output block; the own rows times the 256×512 matrix plus a bias row go to columns 0–511. The two
  stores tile the block, so the block ends holding `Spec.blockResult` of the inputs (`block_eq`).

  Each product is read at an entry as the sum over the contracted axis; a change of float format is the identity on
  the extended reals.
-/
import proofs.«125913_j28767690949357_2_alg».proof.Proof.Gen.KernelIdeal.Frame
import proofs.«125913_j28767690949357_2_alg».proof.Proof.Spec
import proofs.«125913_j28767690949357_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

theorem hz1 : (![0] : Fin 1 → Nat) = fun _ => 0 := funext fun a => by fin_cases a; rfl
theorem hz2 : (![0, 0] : Fin 2 → Nat) = fun _ => 0 := funext fun a => by fin_cases a <;> rfl

/-- A slab of one neighbour inside the 32-neighbour block has its neighbour number below 32. -/
theorem nb_lt (n : Nat) (inb : ∀ a, (![0, n, 0] : Fin 3 → Nat) a + S400x1x256.size a ≤ S400x32x256.size a) : n < 32 := by
  have h := inb 1
  have e : (![0, n, 0] : Fin 3 → Nat) 1 + S400x1x256.size 1 = n + 1 := rfl
  have e' : S400x32x256.size 1 = 32 := rfl
  omega

/-- Entry `(p, ·, d)` of the slab of neighbour `n` sits at `(p, n, d)` of the block. -/
theorem idx_slab (n : Nat)
    (inb : ∀ a, (![0, n, 0] : Fin 3 → Nat) a + S400x1x256.size a ≤ S400x32x256.size a) (p : Fin 400) (u : Fin 1) (d : Fin 256) :
    (Rect.unit (s := S400x32x256) ![0, n, 0] S400x1x256.size inb).idx (ix3 p u d) = ix3 p (⟨n, nb_lt n inb⟩ : Fin 32) d := by
  refine funext fun a => Fin.ext ?_
  match a with
  | ⟨0, _⟩ => show 0 + 1 * p.val = p.val; omega
  | ⟨1, _⟩ => show n + 1 * u.val = n; have := u.isLt; omega
  | ⟨2, _⟩ => show 0 + 1 * d.val = d.val; omega

/-- The first dense layer at node `p`, hidden unit `h`: the slab's row `p` against column `h` of the weights. -/
theorem dense_apply (v : Vec Ideal S400x1x256 .f32) (w : FVec Ideal S256x10 .bf16) (hsc : S400x1x256.ShapeCasts S400x256)
    (hbl : (FTy.bf16).bits < (FTy.f32).bits) (p : Fin 400) (h : Fin 10) :
    matmul dot_S400x256_S256x10_S400x10_1_0_0_1_n_n none (truncf (F := Ideal) (φ := .f32) .bf16 (shapeCast S400x256 v hsc) hbl) w
        (constant S400x10 .f32 0x00000000#32) (ix2 p h)
      = ∑ d : Fin 256, v (ix3 p (0 : Fin 1) d) * w (ix2 d h) := by
  refine (Ideal.matmul_constant_zero_apply dot_S400x256_S256x10_S400x10_1_0_0_1_n_n none _ w (ix2 p h)).trans ?_
  refine (Cert.LibPlainDot.sum_plain dot_S400x256_S256x10_S400x10_1_0_0_1_n_n rfl rfl rfl rfl rfl rfl _ w p h).trans ?_
  refine Finset.sum_congr rfl fun d _ => congrArg (· * w (ix2 d h)) ?_
  show shapeCast S400x256 v hsc (ix2 p d) = v (ix3 p 0 d)
  exact shapeCast_apply v hsc (ix2 p d) (ix3 p 0 d) (by
    rw [Shape.rowMajor_val_three, Shape.rowMajor_val_two]
    show (p.val * 1 + 0) * 256 + d.val = p.val * 256 + d.val
    omega)

/-- A bias row broadcast down the rows, read at `(p, c)`, is the bias at `c`. -/
theorem bias_apply {a b : ℕ} (v : (⟨1, ![b]⟩ : Shape).Idx → EReal) (hsc : (⟨1, ![b]⟩ : Shape).ShapeCasts ⟨2, ![1, b]⟩)
    (hbc : (⟨2, ![1, b]⟩ : Shape).Broadcasts ⟨2, ![a, b]⟩) (p : Fin a) (c : Fin b) :
    broadcastTo ⟨2, ![a, b]⟩ (shapeCast ⟨2, ![1, b]⟩ v hsc) hbc (ix2 p c) = v (ix1 c) :=
  (broadcastTo_1b_ab_apply _ hbc p c).trans (shapeCast_a_1a_apply v hsc 0 c)

/-- The pooled rows against the 10×512 matrix, at an entry. -/
theorem proj10_apply (a : FVec Ideal S400x10 .f32) (w : FVec Ideal S10x512 .f32) (p : Fin 400) (q : Fin 512) :
    matmul dot_S400x10_S10x512_S400x512_1_0_0_1_n_n none a w (constant S400x512 .f32 0x00000000#32) (ix2 p q)
      = ∑ h : Fin 10, a (ix2 p h) * w (ix2 h q) :=
  (Ideal.matmul_constant_zero_apply dot_S400x10_S10x512_S400x512_1_0_0_1_n_n none a w (ix2 p q)).trans
    (Cert.LibPlainDot.sum_plain dot_S400x10_S10x512_S400x512_1_0_0_1_n_n rfl rfl rfl rfl rfl rfl a w p q)

/-- The own rows against the 256×512 matrix, at an entry. -/
theorem proj256_apply (a : FVec Ideal S400x256 .f32) (w : FVec Ideal S256x512 .f32) (p : Fin 400) (q : Fin 512) :
    matmul dot_S400x256_S256x512_S400x512_1_0_0_1_n_n none a w (constant S400x512 .f32 0x00000000#32) (ix2 p q)
      = ∑ d : Fin 256, a (ix2 p d) * w (ix2 d q) :=
  (Ideal.matmul_constant_zero_apply dot_S400x256_S256x512_S400x512_1_0_0_1_n_n none a w (ix2 p q)).trans
    (Cert.LibPlainDot.sum_plain dot_S400x256_S256x512_S400x512_1_0_0_1_n_n rfl rfl rfl rfl rfl rfl a w p q)

theorem scalar_ofBits (φ : FTy) (b : BitVec φ.bits) : Scalar.ofBits (F := Ideal) φ b = Ideal.ofBits φ b := rfl

/-- Two stores that agree with one function of the buffer's index leave that function wherever they cover. -/
theorem canon_two {S : Shape} {e : EltTy} (r₁ r₂ : Rect S) (p₁ : r₁.shape.Idx → Elt Ideal e) (p₂ : r₂.shape.Idx → Elt Ideal e)
    (G : S.Idx → Elt Ideal e) (h₁ : ∀ x, p₁ x = G (r₁.emb x)) (h₂ : ∀ x, p₂ x = G (r₂.emb x)) (y : S.Idx)
    (hy : ∃ pc ∈ ([⟨r₁, p₁⟩, ⟨r₂, p₂⟩] : List (View.Piece (Elt Ideal) S e)), y ∈ pc.1.set) :
    View.canon ([⟨r₁, p₁⟩, ⟨r₂, p₂⟩] : List (View.Piece (Elt Ideal) S e)) y = G y :=
  View.canon_apply_of_pieces G _ (by
    intro pc hpc x
    simp only [List.mem_cons, List.mem_singleton, List.not_mem_nil, or_false] at hpc
    rcases hpc with rfl | rfl
    · exact h₁ x
    · exact h₂ x) y hy

/-- The neighbours' piece, at node `p`, column `q` of the right half. -/
theorem neigh_piece (x1 : Vec Ideal S400x32x256 .f32) (x2 : Vec Ideal S256x10 .f32) (x3 : Vec Ideal S10 .f32)
    (x4 : Vec Ideal S10x512 .f32) (x5 : Vec Ideal S512 .f32) (p : Fin 400) (q : Fin 512) :
    k0_pay19 (k0_pay2 (View.ld x2 r0_0)) (View.ld x3 r0_1) (k0_pay17 (k0_pay2 (View.ld x2 r0_0)) (View.ld x3 r0_1) (k0_pay14 (k0_pay2 (View.ld x2 r0_0)) (View.ld x3 r0_1) (k0_pay12 (k0_pay2 (View.ld x2 r0_0)) (View.ld x3 r0_1) (k0_pay11 (k0_pay2 (View.ld x2 r0_0)) (View.ld x3 r0_1) (k0_pay9 (k0_pay2 (View.ld x2 r0_0)) (View.ld x3 r0_1) (k0_pay6 (k0_pay2 (View.ld x2 r0_0)) (View.ld x3 r0_1) (k0_pay4 (k0_pay2 (View.ld x2 r0_0)) (View.ld x3 r0_1) (k0_pay3 (View.ld x2 r0_0) (View.ld x3 r0_1) (View.ld x1 r0_2) (View.ld x1 r0_3) (View.ld x1 r0_4)) (View.ld x1 r0_5) (View.ld x1 r0_6) (View.ld x1 r0_7)) (k0_pay5 (k0_pay2 (View.ld x2 r0_0)) (View.ld x3 r0_1) (View.ld x1 r0_8)) (View.ld x1 r0_9) (View.ld x1 r0_10) (View.ld x1 r0_11)) (k0_pay7 (k0_pay2 (View.ld x2 r0_0)) (View.ld x1 r0_12)) (k0_pay8 (View.ld x3 r0_1)) (View.ld x1 r0_13) (View.ld x1 r0_14) (View.ld x1 r0_15)) (k0_pay10 (View.ld x1 r0_16)) (View.ld x1 r0_17) (View.ld x1 r0_18) (View.ld x1 r0_19)) (View.ld x1 r0_20) (View.ld x1 r0_21) (View.ld x1 r0_22)) (k0_pay13 (k0_pay2 (View.ld x2 r0_0)) (View.ld x3 r0_1) (View.ld x1 r0_23)) (View.ld x1 r0_24) (View.ld x1 r0_25) (View.ld x1 r0_26)) (k0_pay15 (k0_pay2 (View.ld x2 r0_0)) (View.ld x1 r0_27)) (k0_pay16 (View.ld x3 r0_1)) (View.ld x1 r0_28) (View.ld x1 r0_29) (View.ld x1 r0_30)) (k0_pay18 (View.ld x1 r0_31)) (View.ld x1 r0_32) (View.ld x1 r0_33) (View.ld x4 r0_34) (View.ld x5 r0_35) (ix2 p q)
      = Spec.neighPart x2 x3 x4 x5 (fun n d => x1 (ix3 p n d)) q := by
  unfold Spec.neighPart Spec.pooled
  simp only [Spec.fold_max_fin32]
  unfold Spec.hidden
  simp only [k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19,
    View.ld_unit_zero (S := S256x10) hz2, View.ld_unit_zero (S := S10) hz1, View.ld_unit_zero (S := S10x512) hz2,
    View.ld_unit_zero (S := S512) hz1,
    addf_apply, maximumf_apply, broadcast_apply, truncf_apply, scalar_ofBits,
    proj10_apply, dense_apply, bias_apply]
  simp only [View.ld, idx_slab]

/-- The own piece, at node `p`, column `q` of the left half. -/
theorem self_piece (x0 : Vec Ideal S400x256 .f32) (x6 : Vec Ideal S256x512 .f32) (x7 : Vec Ideal S512 .f32) (p : Fin 400) (q : Fin 512) :
    k0_pay1 (k0_pay20 (View.ld x0 r0_36) (View.ld x6 r0_37)) (View.ld x7 r0_35) (ix2 p q)
      = Spec.selfPart x6 x7 (fun d => x0 (ix2 p d)) q := by
  unfold Spec.selfPart
  simp only [k0_pay1, k0_pay20, View.ld_unit_zero (S := S400x256) hz2, View.ld_unit_zero (S := S256x512) hz2,
    View.ld_unit_zero (S := S512) hz1, addf_apply, proj256_apply, bias_apply]

/-- After the body the output block holds `Spec.blockResult` of the input blocks. -/
theorem block_eq (x0 : Vec Ideal S400x256 .f32) (x1 : Vec Ideal S400x32x256 .f32) (x2 : Vec Ideal S256x10 .f32) (x3 : Vec Ideal S10 .f32)
    (x4 : Vec Ideal S10x512 .f32) (x5 : Vec Ideal S512 .f32) (x6 : Vec Ideal S256x512 .f32) (x7 : Vec Ideal S512 .f32) :
    out0_8 x0 x1 x2 x3 x4 x5 x6 x7 = Spec.blockResult x0 x1 x2 x3 x4 x5 x6 x7 := by
  funext y
  unfold out0_8
  refine canon_two _ _ _ _ (Spec.blockResult x0 x1 x2 x3 x4 x5 x6 x7) ?_ ?_ y (cover0_8 _ _ y)
  · intro x
    obtain ⟨p, q, rfl⟩ : ∃ (p : Fin 400) (q : Fin 512), x = ix2 p q := ⟨x 0, x 1, eq_ix2 x⟩
    have hemb : r0_39.emb (ix2 p q) = ix2 p (⟨q.val + 512, by have := q.isLt; omega⟩ : Fin 1024) := funext fun a => Fin.ext (by
      match a with
      | ⟨0, _⟩ => show 0 + 1 * p.val = p.val; omega
      | ⟨1, _⟩ => show 512 + 1 * q.val = q.val + 512; omega)
    rw [hemb]
    refine (neigh_piece x1 x2 x3 x4 x5 p q).trans ?_
    exact (Spec.rowOut_right x2 x3 x4 x5 x6 x7 (fun d => x0 (ix2 p d)) (fun n d => x1 (ix3 p n d)) q (by have := q.isLt; omega)).symm
  · intro x
    obtain ⟨p, q, rfl⟩ : ∃ (p : Fin 400) (q : Fin 512), x = ix2 p q := ⟨x 0, x 1, eq_ix2 x⟩
    have hemb : r0_38.emb (ix2 p q) = ix2 p (⟨q.val, by have := q.isLt; omega⟩ : Fin 1024) := funext fun a => Fin.ext (by
      match a with
      | ⟨0, _⟩ => show 0 + 1 * p.val = p.val; omega
      | ⟨1, _⟩ => show 0 + 1 * q.val = q.val; omega)
    rw [hemb]
    refine (self_piece x0 x6 x7 p q).trans ?_
    exact (Spec.rowOut_left x2 x3 x4 x5 x6 x7 (fun d => x0 (ix2 p d)) (fun n d => x1 (ix3 p n d)) q (by have := q.isLt; omega)).symm

end Cert.KernelIdeal.Body

end
-- ==== Proof.KernelValue.lean ====
/-
  The kernel's result array is `Spec.result` of its arguments.

  The grid has 50 points; point `t` works on nodes `400 t … 400 t + 399`. Its blocks of the two node-indexed inputs are
  those rows of the arrays, the weight and bias windows are the whole arrays at every point, and its output block is
  rows `400 t … 400 t + 399` of the result, all 1024 columns. A row of `Spec.result` depends on the inputs only through
  that node's own row and neighbour rows, so the block the body leaves (`Body.block_eq`) is the block of
  `Spec.result` of the whole arrays (`flushed_eq`). Row `r` lies in the block of point `r / 400`, so the blocks cover the
  result (`cover`), and the array after the run is `Spec.result` (`final`, `run`).
-/
import proofs.«125913_j28767690949357_2_alg».proof.Proof.Gen.KernelIdeal.Value
import proofs.«125913_j28767690949357_2_alg».proof.Proof.Body
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The index maps over the grid: the node-indexed windows sit at block `t` along the node axis and at block 0 on
    every other axis; the weight and bias windows at block 0 throughout. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Row `p` of point `t`'s block of own features is row `400 t + p` of the array. -/
theorem blk0 (c : Dev nD) (t : Fin cfg0.N) (p : Fin 400) (d : Fin 256) (r : Fin 20000) (hr : r.val = t.val * 400 + p.val) :
    iblk m c 0 t (ix2 p d) = V m c main_arg0 (ix2 r d) := by
  obtain ⟨e0, e1, -⟩ := idx_facts t
  show V m c main_arg0 (((cfg0.win 0).blk t).view.emb (ix2 p d)) = V m c main_arg0 (ix2 r d)
  refine congrArg (V m c main_arg0) (funext fun a => Fin.ext ?_)
  match a with
  | ⟨0, _⟩ => show win0_0.index t (0 : Fin 2) * 400 + 1 * p.val = r.val; rw [e0, hr]; omega
  | ⟨1, _⟩ => show win0_0.index t (1 : Fin 2) * 256 + 1 * d.val = d.val; rw [e1]; omega

/-- Row `p` of point `t`'s block of neighbour features is row `400 t + p` of the array. -/
theorem blk1 (c : Dev nD) (t : Fin cfg0.N) (p : Fin 400) (n : Fin 32) (d : Fin 256) (r : Fin 20000)
    (hr : r.val = t.val * 400 + p.val) :
    iblk m c 1 t (ix3 p n d) = V m c main_arg1 (ix3 r n d) := by
  obtain ⟨-, -, e0, e1, e2, -⟩ := idx_facts t
  show V m c main_arg1 (((cfg0.win 1).blk t).view.emb (ix3 p n d)) = V m c main_arg1 (ix3 r n d)
  refine congrArg (V m c main_arg1) (funext fun a => Fin.ext ?_)
  match a with
  | ⟨0, _⟩ => show win0_1.index t (0 : Fin 3) * 400 + 1 * p.val = r.val; rw [e0, hr]; omega
  | ⟨1, _⟩ => show win0_1.index t (1 : Fin 3) * 32 + 1 * n.val = n.val; rw [e1]; omega
  | ⟨2, _⟩ => show win0_1.index t (2 : Fin 3) * 256 + 1 * d.val = d.val; rw [e2]; omega

/-- The weight and bias windows are the whole arrays at every point. -/
theorem blk2 (c : Dev nD) (t : Fin cfg0.N) : iblk m c 2 t = V m c main_arg2 := by
  obtain ⟨-, -, -, -, -, e0, e1, -⟩ := idx_facts t
  funext z
  show V m c main_arg2 (((cfg0.win 2).blk t).view.emb z) = V m c main_arg2 z
  refine congrArg (V m c main_arg2) (funext fun a => Fin.ext ?_)
  match a with
  | ⟨0, _⟩ => show win0_2.index t (0 : Fin 2) * 256 + 1 * (z 0).val = (z 0).val; rw [e0]; omega
  | ⟨1, _⟩ => show win0_2.index t (1 : Fin 2) * 10 + 1 * (z 1).val = (z 1).val; rw [e1]; omega

theorem blk3 (c : Dev nD) (t : Fin cfg0.N) : iblk m c 3 t = V m c main_arg3 := by
  obtain ⟨-, -, -, -, -, -, -, e0, -⟩ := idx_facts t
  funext z
  show V m c main_arg3 (((cfg0.win 3).blk t).view.emb z) = V m c main_arg3 z
  refine congrArg (V m c main_arg3) (funext fun a => Fin.ext ?_)
  match a with
  | ⟨0, _⟩ => show win0_3.index t (0 : Fin 1) * 10 + 1 * (z 0).val = (z 0).val; rw [e0]; omega

theorem blk4 (c : Dev nD) (t : Fin cfg0.N) : iblk m c 4 t = V m c main_arg4 := by
  obtain ⟨-, -, -, -, -, -, -, -, e0, e1, -⟩ := idx_facts t
  funext z
  show V m c main_arg4 (((cfg0.win 4).blk t).view.emb z) = V m c main_arg4 z
  refine congrArg (V m c main_arg4) (funext fun a => Fin.ext ?_)
  match a with
  | ⟨0, _⟩ => show win0_4.index t (0 : Fin 2) * 10 + 1 * (z 0).val = (z 0).val; rw [e0]; omega
  | ⟨1, _⟩ => show win0_4.index t (1 : Fin 2) * 512 + 1 * (z 1).val = (z 1).val; rw [e1]; omega

theorem blk5 (c : Dev nD) (t : Fin cfg0.N) : iblk m c 5 t = V m c main_arg5 := by
  obtain ⟨-, -, -, -, -, -, -, -, -, -, e0, -⟩ := idx_facts t
  funext z
  show V m c main_arg5 (((cfg0.win 5).blk t).view.emb z) = V m c main_arg5 z
  refine congrArg (V m c main_arg5) (funext fun a => Fin.ext ?_)
  match a with
  | ⟨0, _⟩ => show win0_5.index t (0 : Fin 1) * 512 + 1 * (z 0).val = (z 0).val; rw [e0]; omega

theorem blk6 (c : Dev nD) (t : Fin cfg0.N) : iblk m c 6 t = V m c main_arg6 := by
  obtain ⟨-, -, -, -, -, -, -, -, -, -, -, e0, e1, -⟩ := idx_facts t
  funext z
  show V m c main_arg6 (((cfg0.win 6).blk t).view.emb z) = V m c main_arg6 z
  refine congrArg (V m c main_arg6) (funext fun a => Fin.ext ?_)
  match a with
  | ⟨0, _⟩ => show win0_6.index t (0 : Fin 2) * 256 + 1 * (z 0).val = (z 0).val; rw [e0]; omega
  | ⟨1, _⟩ => show win0_6.index t (1 : Fin 2) * 512 + 1 * (z 1).val = (z 1).val; rw [e1]; omega

theorem blk7 (c : Dev nD) (t : Fin cfg0.N) : iblk m c 7 t = V m c main_arg7 := by
  obtain ⟨-, -, -, -, -, -, -, -, -, -, -, -, -, e0, -⟩ := idx_facts t
  funext z
  show V m c main_arg7 (((cfg0.win 7).blk t).view.emb z) = V m c main_arg7 z
  refine congrArg (V m c main_arg7) (funext fun a => Fin.ext ?_)
  match a with
  | ⟨0, _⟩ => show win0_7.index t (0 : Fin 1) * 512 + 1 * (z 0).val = (z 0).val; rw [e0]; omega

/-- What point `t` writes back is block `t` of `Spec.result` of the arrays as the region finds them. -/
theorem flushed_eq (c : Dev nD) (t : Fin cfg0.N) :
    (dats m 0 c).flushed 8 t = ((cfg0.win 8).blk t).view.read (Elt Ideal)
      (Spec.result (V m c main_arg0) (V m c main_arg1) (V m c main_arg2) (V m c main_arg3) (V m c main_arg4) (V m c main_arg5) (V m c main_arg6) (V m c main_arg7)) := by
  rw [Value.flushed8]
  funext y
  show out0_8 (iblk m c 0 t) (iblk m c 1 t) (iblk m c 2 t) (iblk m c 3 t) (iblk m c 4 t) (iblk m c 5 t) (iblk m c 6 t) (iblk m c 7 t) y
    = Spec.result (V m c main_arg0) (V m c main_arg1) (V m c main_arg2) (V m c main_arg3) (V m c main_arg4) (V m c main_arg5) (V m c main_arg6) (V m c main_arg7) (((cfg0.win 8).blk t).view.emb y)
  refine (congrFun (Body.block_eq (iblk m c 0 t) (iblk m c 1 t) (iblk m c 2 t) (iblk m c 3 t) (iblk m c 4 t) (iblk m c 5 t)
    (iblk m c 6 t) (iblk m c 7 t)) y).trans ?_
  obtain ⟨-, -, -, -, -, -, -, -, -, -, -, -, -, -, e0, e1⟩ := idx_facts t
  have hy0 : (y 0).val < 400 := (y 0).isLt
  have hy1 : (y 1).val < 1024 := (y 1).isLt
  have hr : ((((cfg0.win 8).blk t).view.emb y) 0).val = t.val * 400 + (y 0).val := by
    show win0_8.index t (0 : Fin 2) * 400 + 1 * (y 0).val = _; rw [e0]; omega
  have hc : ((((cfg0.win 8).blk t).view.emb y) 1).val = (y 1).val := by
    show win0_8.index t (1 : Fin 2) * 1024 + 1 * (y 1).val = _; rw [e1]; omega
  unfold Spec.blockResult Spec.result
  exact Spec.rowOut_congr (blk2 m c t) (blk3 m c t) (blk4 m c t) (blk5 m c t) (blk6 m c t) (blk7 m c t)
    (funext fun d => blk0 m c t ⟨(y 0).val, hy0⟩ d _ hr)
    (funext fun n => funext fun d => blk1 m c t ⟨(y 0).val, hy0⟩ n d _ hr) hc.symm _ _

/-- An index of the result is in point `t`'s block iff each coordinate is in the block's range on its axis. -/
theorem mem_blk (t : Fin cfg0.N) (i : S20000x1024.Idx) :
    i ∈ ((cfg0.win 8).blk t).view.set ↔ ∀ a : Fin 2, win0_8.index t a * S400x1024.size a ≤ (i a).val
      ∧ (i a).val < win0_8.index t a * S400x1024.size a + S400x1024.size a := by
  show i ∈ ((View.whole main_v0).slice (win0_8.rect t)).set ↔ _
  rw [View.set_slice_whole, Rect.mem_set_unit]
  exact Iff.rfl

/-- Every index of the result is in the block of the point that holds its row. -/
theorem cover (i : S20000x1024.Idx) :
    ∃ t : Fin cfg0.N, (cfg0.win 8).flush t = true ∧ i ∈ ((cfg0.win 8).blk t).view.set := by
  have hi0 : (i 0).val < 20000 := (i 0).isLt
  have hi1 : (i 1).val < 1024 := (i 1).isLt
  have ht : (i 0).val / 400 < cfg0.N := lt_of_lt_of_eq (by omega : (i 0).val / 400 < 50) N_0.symm
  obtain ⟨-, -, -, -, -, -, -, -, -, -, -, -, -, -, e0, e1⟩ := idx_facts ⟨(i 0).val / 400, ht⟩
  refine ⟨⟨(i 0).val / 400, ht⟩, flush0_8 _, ?_⟩
  rw [mem_blk]
  intro a
  match a with
  | ⟨0, _⟩ =>
    show win0_8.index ⟨(i 0).val / 400, ht⟩ (0 : Fin 2) * 400 ≤ (i 0).val
      ∧ (i 0).val < win0_8.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win0_8.index ⟨(i 0).val / 400, ht⟩ (1 : Fin 2) * 1024 ≤ (i 1).val
      ∧ (i 1).val < win0_8.index ⟨(i 0).val / 400, ht⟩ (1 : Fin 2) * 1024 + 1024
    rw [e1]
    omega

/-- The result array after the run. -/
theorem final (c : Dev nD) : (dats m 0 c).arrAt 8 cfg0.N
    = Spec.result (V m c main_arg0) (V m c main_arg1) (V m c main_arg2) (V m c main_arg3) (V m c main_arg4) (V m c main_arg5) (V m c main_arg6) (V m c main_arg7) :=
  (dats m 0 c).arrAt_eq_of_cover 8 _ (fun t _ => flushed_eq m c t) cover

/-- The kernel's run: it ends with the result array at `Spec.result` of the arguments, the arguments unchanged. -/
theorem run : θ_run defs (onTc (τ := τ) (main (F := Ideal))) ⟨m, fun _ => 0, ρ⟩ fun r => ∀ c : Dev nD,
      r.2.mem ((c : Thread nD τ).loc main_v0)
        = Spec.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.KernelValue

end
-- ==== Proof.RefValue.lean ====
/-
  The reference computes `Spec.result`.

  Read index by index, the reference's operations are: a contraction of each neighbour row with the first weight
  matrix, plus the bias broadcast along the hidden axis, clipped below at zero — one hidden unit (`hidden_eq`); a
  reduction by maximum over the neighbour axis from −∞ — the pooled unit (`pooled_eq`): a commutative and
  associative reduction over one axis is the fold over that axis's coordinates, in any order; two more contractions
  with a bias each (`self_eq`, `neigh_eq`); and a concatenation along the column axis, which at column `c` reads the
  first operand when `c < 512` and the second at `c - 512` otherwise (`result_eq`).
-/
import proofs.«125913_j28767690949357_2_alg».proof.Proof.Gen.ReferenceIdeal.Read
import proofs.«125913_j28767690949357_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S20000x256, .f32⟩ : BufTy).Contents (Elt Ideal)) (x1 : (⟨S20000x32x256, .f32⟩ : BufTy).Contents (Elt Ideal))
  (x2 : (⟨S256x10, .f32⟩ : BufTy).Contents (Elt Ideal)) (x3 : (⟨S10, .f32⟩ : BufTy).Contents (Elt Ideal))
  (x4 : (⟨S10x512, .f32⟩ : BufTy).Contents (Elt Ideal)) (x5 : (⟨S512, .f32⟩ : BufTy).Contents (Elt Ideal))
  (x6 : (⟨S256x512, .f32⟩ : BufTy).Contents (Elt Ideal)) (x7 : (⟨S512, .f32⟩ : BufTy).Contents (Elt Ideal))

/-- The clipped dense layer at node `r`, neighbour `n`, hidden unit `h`. -/
theorem hidden_eq (r : Fin 20000) (n : Fin 32) (h : Fin 10) :
    val_main_v4 (F := Ideal) x1 x2 x3 (ix3 r n h) = Spec.hidden x2 x3 (fun d => x1 (ix3 r n d)) h := by
  rw [val_main_v4_apply, val_main_v3_apply, val_main_v0_apply, val_main_v2_apply, val_main_v1_apply,
    val_main_call0_v0_apply, val_main_call0_cst_apply]
  have e1 : ∀ k : Fin 256, lidx_main_v0 (ix3 r n h) k = ix3 r n k := fun k => funext fun a => by
    match a with
    | ⟨0, _⟩ => rfl
    | ⟨1, _⟩ => rfl
    | ⟨2, _⟩ => rfl
  have e2 : ∀ k : Fin 256, ridx_main_v0 (ix3 r n h) k = ix2 k h := fun k => funext fun a => by
    match a with
    | ⟨0, _⟩ => rfl
    | ⟨1, _⟩ => rfl
  have e3 : idx_main_v1 (idx_main_v2 (ix3 r n h)) = ix1 h := funext fun a => by
    match a with
    | ⟨0, _⟩ => rfl
  simp only [e1, e2, e3, Ideal.maximumf_def, Ideal.addf_def, Ideal.ofBits_def]
  rfl

/-- The maximum over the neighbour axis at node `r`, hidden unit `h`. -/
theorem pooled_eq (r : Fin 20000) (h : Fin 10) :
    val_main_v5 (F := Ideal) x1 x2 x3 (ix2 r h) = Spec.pooled x2 x3 (fun n d => x1 (ix3 r n d)) h := by
  have hred : S20000x32x10.Reduces [1] S20000x10 :=
    ⟨reducesTo_S20000x32x10_S20000x10_d1.1, Nat.succ_pos 1, reducesTo_S20000x32x10_S20000x10_d1.2⟩
  have key : ∀ n : Fin 32, (val_main_v4 (F := Ideal) x1 x2 x3) (hred.lift (ix2 r h) n)
      = Spec.hidden x2 x3 (fun d => x1 (ix3 r n d)) h := fun n => by
    have el : hred.lift (ix2 r h) n = ix3 r n h := funext fun a => Fin.ext (by
      match a with
      | ⟨0, _⟩ => rfl
      | ⟨1, _⟩ => rfl
      | ⟨2, _⟩ => rfl)
    rw [el]
    exact hidden_eq x1 x2 x3 r n h
  unfold val_main_v5
  rw [Host.reduce_eq_fold_single (FloatOps.maximumf (F := Ideal) (φ := .f32)) (h := hred)]
  unfold Spec.pooled
  show Finset.fold max (Ideal.ofBits .f32 0xFF800000#32)
    (fun n : Fin 32 => val_main_v4 (F := Ideal) x1 x2 x3 (hred.lift (ix2 r h) n)) Finset.univ = _
  exact Finset.fold_congr fun n _ => key n

/-- The node's own projection at node `r`, column `q`. -/
theorem self_eq (r : Fin 20000) (q : Fin 512) :
    val_main_v13 (F := Ideal) x0 x6 x7 (ix2 r q) = Spec.selfPart x6 x7 (fun d => x0 (ix2 r d)) q := by
  rw [val_main_v13_apply, val_main_v10_apply, val_main_v12_apply, val_main_v11_apply]
  have e1 : ∀ k : Fin 256, lidx_main_v10 (ix2 r q) k = ix2 r k := fun k => funext fun a => by
    match a with
    | ⟨0, _⟩ => rfl
    | ⟨1, _⟩ => rfl
  have e2 : ∀ k : Fin 256, ridx_main_v10 (ix2 r q) k = ix2 k q := fun k => funext fun a => by
    match a with
    | ⟨0, _⟩ => rfl
    | ⟨1, _⟩ => rfl
  have e3 : idx_main_v11 (idx_main_v12 (ix2 r q)) = ix1 q := funext fun a => by
    match a with
    | ⟨0, _⟩ => rfl
  simp only [e1, e2, e3, Ideal.addf_def]
  rfl

/-- The neighbours' projection at node `r`, column `q`. -/
theorem neigh_eq (r : Fin 20000) (q : Fin 512) :
    val_main_v9 (F := Ideal) x1 x2 x3 x4 x5 (ix2 r q) = Spec.neighPart x2 x3 x4 x5 (fun n d => x1 (ix3 r n d)) q := by
  rw [val_main_v9_apply, val_main_v6_apply, val_main_v8_apply, val_main_v7_apply]
  have e1 : ∀ k : Fin 10, lidx_main_v6 (ix2 r q) k = ix2 r k := fun k => funext fun a => by
    match a with
    | ⟨0, _⟩ => rfl
    | ⟨1, _⟩ => rfl
  have e2 : ∀ k : Fin 10, ridx_main_v6 (ix2 r q) k = ix2 k q := fun k => funext fun a => by
    match a with
    | ⟨0, _⟩ => rfl
    | ⟨1, _⟩ => rfl
  have e3 : idx_main_v7 (idx_main_v8 (ix2 r q)) = ix1 q := funext fun a => by
    match a with
    | ⟨0, _⟩ => rfl
  simp only [e1, e2, e3, pooled_eq, Ideal.addf_def]
  rfl

/-- The reference's result is `Spec.result` of its arguments. -/
theorem result_eq : val_main_v14 (F := Ideal) x0 x1 x2 x3 x4 x5 x6 x7 = Spec.result x0 x1 x2 x3 x4 x5 x6 x7 := by
  funext j
  obtain ⟨r, c, rfl⟩ : ∃ (r : Fin 20000) (c : Fin 1024), j = ix2 r c := ⟨j 0, j 1, eq_ix2 j⟩
  show concatenate S20000x1024 1 [⟨S20000x512, val_main_v13 (F := Ideal) x0 x6 x7⟩, ⟨S20000x512, val_main_v9 (F := Ideal) x1 x2 x3 x4 x5⟩]
      concatenates_S20000x512_S20000x512_S20000x1024_d1 (ix2 r c)
    = Spec.rowOut x2 x3 x4 x5 x6 x7 (fun d => x0 (ix2 r d)) (fun n d => x1 (ix3 r n d)) c.val c.isLt
  unfold Spec.rowOut
  split
  · rename_i hc
    refine (concatenate_pair_apply_left (1 : Fin S20000x1024.rank) _ _ concatenates_S20000x512_S20000x512_S20000x1024_d1
      (ix2 r c) rfl (ix2 r (⟨c.val, hc⟩ : Fin 512)) (fun b => by
        match b with
        | ⟨0, _⟩ => rfl
        | ⟨1, _⟩ => rfl)).trans ?_
    exact self_eq x0 x6 x7 r ⟨c.val, hc⟩
  · rename_i hc
    refine (concatenate_pair_apply_right (1 : Fin S20000x1024.rank) _ _ concatenates_S20000x512_S20000x512_S20000x1024_d1
      (ix2 r c) rfl rfl (ix2 r (⟨c.val - 512, by have := c.isLt; omega⟩ : Fin 512)) (fun b hb => by
        match b with
        | ⟨0, _⟩ => rfl
        | ⟨1, _⟩ => exact absurd rfl hb) (by show c.val - 512 + 512 = c.val; omega)).trans ?_
    exact neigh_eq x1 x2 x3 x4 x5 r ⟨c.val - 512, by have := c.isLt; omega⟩

end Cert.ReferenceIdeal.RefValue

end
-- ==== Proof.lean ====
/-
  The certificate of the max-pooling neighbourhood aggregator: the kernel against its jnp reference.

  Both programs compute, for each of 20000 nodes, the row `Spec.rowOut`: the node's own features through a 256×512
  dense layer in columns 0–511, and in columns 512–1023 a 10×512 dense layer applied to the maximum over the node's
  32 neighbours of a clipped 256×10 dense layer of the neighbour's features (Proof/Spec.lean). The kernel does this
  400 nodes at a time, one neighbour after the other with a running maximum from −∞ (Proof/Body.lean,
  Proof/KernelValue.lean); the reference with one contraction over all nodes and neighbours, a reduction by maximum
  over the neighbour axis and a concatenation (Proof/RefValue.lean). On the extended reals a sum does not depend on its
  order, a maximum folded over the neighbours is the nested maximum in order, and a change of float format is the
  identity, so the two results are one function of the arguments. No finiteness of the inputs is used.

  The three frames are the generated ones (the reference's is its generated run with the result dropped); the ideal
  pass rewrote nothing, so the idealization claim is trivial.
-/
import proofs.«125913_j28767690949357_2_alg».proof.Defs
import proofs.«125913_j28767690949357_2_alg».proof.Proof.Gen.Kernel
import proofs.«125913_j28767690949357_2_alg».proof.Proof.Gen.Kernel.Skeleton
import proofs.«125913_j28767690949357_2_alg».proof.Proof.Gen.Kernel.Launch
import proofs.«125913_j28767690949357_2_alg».proof.Proof.Gen.Kernel.Points
import proofs.«125913_j28767690949357_2_alg».proof.Proof.Gen.Kernel.Frame
import proofs.«125913_j28767690949357_2_alg».proof.Proof.Gen.KernelIdeal
import proofs.«125913_j28767690949357_2_alg».proof.Proof.Gen.KernelIdeal.Skeleton
import proofs.«125913_j28767690949357_2_alg».proof.Proof.Gen.KernelIdeal.Launch
import proofs.«125913_j28767690949357_2_alg».proof.Proof.Gen.KernelIdeal.Points
import proofs.«125913_j28767690949357_2_alg».proof.Proof.Gen.KernelIdeal.Frame
import proofs.«125913_j28767690949357_2_alg».proof.Proof.Gen.ReferenceIdeal
import proofs.«125913_j28767690949357_2_alg».proof.Proof.Gen.Pre_finite_inputs
import proofs.«125913_j28767690949357_2_alg».proof.Proof.Gen.KernelIdeal.Value
import proofs.«125913_j28767690949357_2_alg».proof.Proof.Gen.ReferenceIdeal.Run
import proofs.«125913_j28767690949357_2_alg».proof.Proof.Gen.ReferenceIdeal.Read
import proofs.«125913_j28767690949357_2_alg».proof.Proof.KernelValue
import proofs.«125913_j28767690949357_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `Spec.result` of the
    arguments: the kernel by its blocks (`KernelValue.run`), the reference by its operations read index by index
    (`RefValue.result_eq`). -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
